-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S838860 : Shape := ⟨1, ![838860]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S838860 : S_.BroadcastsInDim S838860 (![] : Fin 0 → Fin S838860.rank)
  reducesTo_S838860_S_d0 : S838860.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S838860 .f32) (main_arg2 : FVec F S4096 .f32) (main_arg3 : IVec S838860 32) (main_arg4 : IVec S838860 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S838860 .f32 := Host.absf main_arg1
  let main_cst_0 : FVec F S_ .f32 := constant S_ .f32 0x7F800000#32
  let main_v5 : FVec F S838860 .f32 := broadcastInDim S838860 ![] bcast_S_S838860 main_cst_0
  let main_v6 : IVec S838860 1 := cmpf .olt main_v4 main_v5
  let main_c_1 : IVec S_ 1 := constantI S_ 1 1#1
  let main_v7 : IVec S_ 1 := (fun x v => Host.reduce IntOp.andi x v reducesTo_S838860_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S838860 : Shape := ⟨1, ![838860]⟩
abbrev S4096 : Shape := ⟨1, ![4096]⟩
abbrev S_ : Shape := ⟨0, ![]⟩
abbrev S4096x4096 : Shape := ⟨2, ![4096, 4096]⟩
abbrev S838860x1 : Shape := ⟨2, ![838860, 1]⟩
abbrev S838860x2 : Shape := ⟨2, ![838860, 2]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 28
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S838860, .f32⟩
  | .hbm, ⟨2, _⟩ => ⟨S4096, .f32⟩
  | .hbm, ⟨3, _⟩ => ⟨S838860, .i32⟩
  | .hbm, ⟨4, _⟩ => ⟨S838860, .i32⟩
  | .hbm, ⟨5, _⟩ => ⟨S_, .bf16⟩
  | .hbm, ⟨6, _⟩ => ⟨S4096x4096, .bf16⟩
  | .hbm, ⟨7, _⟩ => ⟨S838860, .bf16⟩
  | .hbm, ⟨8, _⟩ => ⟨S_, .i32⟩
  | .hbm, ⟨9, _⟩ => ⟨S838860, .i32⟩
  | .hbm, ⟨10, _⟩ => ⟨S838860, .i1⟩
  | .hbm, ⟨11, _⟩ => ⟨S_, .i32⟩
  | .hbm, ⟨12, _⟩ => ⟨S838860, .i32⟩
  | .hbm, ⟨13, _⟩ => ⟨S838860, .i32⟩
  | .hbm, ⟨14, _⟩ => ⟨S838860, .i32⟩
  | .hbm, ⟨15, _⟩ => ⟨S_, .i32⟩
  | .hbm, ⟨16, _⟩ => ⟨S838860, .i32⟩
  | .hbm, ⟨17, _⟩ => ⟨S838860, .i1⟩
  | .hbm, ⟨18, _⟩ => ⟨S_, .i32⟩
  | .hbm, ⟨19, _⟩ => ⟨S838860, .i32⟩
  | .hbm, ⟨20, _⟩ => ⟨S838860, .i32⟩
  | .hbm, ⟨21, _⟩ => ⟨S838860, .i32⟩
  | .hbm, ⟨22, _⟩ => ⟨S838860x1, .i32⟩
  | .hbm, ⟨23, _⟩ => ⟨S838860x1, .i32⟩
  | .hbm, ⟨24, _⟩ => ⟨S838860x2, .i32⟩
  | .hbm, ⟨25, _⟩ => ⟨S4096x4096, .bf16⟩
  | .hbm, ⟨26, _⟩ => ⟨S1x4096, .f32⟩
  | .hbm, ⟨27, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  bitsLt_bf16_f32 : FTy.bits .bf16 < FTy.bits .f32
  bcast_S_S838860 : S_.BroadcastsInDim S838860 (![] : Fin 0 → Fin S838860.rank)
  bcast_S838860_S838860x1_0 : S838860.BroadcastsInDim S838860x1 (![0] : Fin 1 → Fin S838860x1.rank)
  concatenates_S838860x1_S838860x1_S838860x2_d1 : Shape.Concatenates [S838860x1, S838860x1] S838860x2 1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S4096x4096_S838860x2_S838860_n_01_01_1_wf : ScatterDims.WF S4096x4096 S838860x2 S838860 [] [0, 1] [0, 1] 1
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x4096.size a
  hwx0_3 : ∀ i : grid0.Coords, EltTy.bits .f32 = 32 ∨ (Rect.block (s := S16384x4096) S512x512.size (cc0_transform_3 i) (hinb0_3 i)).WholeWords (EltTy.packing .f32)

variable [Facts₀]

def scatter_S4096x4096_S838860x2_S838860_n_01_01_1 : ScatterDims S4096x4096 S838860x2 S838860 where
  updateWindowDims := []
  insertedWindowDims := [0, 1]
  scatterDimsToOperandDims := [0, 1]
  indexVectorDim := 1
  wf := scatter_S4096x4096_S838860x2_S838860_n_01_01_1_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S838860 : Shape := ⟨1, ![838860]⟩
abbrev S4096 : Shape := ⟨1, ![4096]⟩
abbrev S_ : Shape := ⟨0, ![]⟩
abbrev S4096x4096 : Shape := ⟨2, ![4096, 4096]⟩
abbrev S838860x1 : Shape := ⟨2, ![838860, 1]⟩
abbrev S838860x2 : Shape := ⟨2, ![838860, 2]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S838860, .f32⟩
  | .hbm, ⟨2, _⟩ => ⟨S4096, .f32⟩
  | .hbm, ⟨3, _⟩ => ⟨S838860, .i32⟩
  | .hbm, ⟨4, _⟩ => ⟨S838860, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S838860, .i32⟩
  | .hbm, ⟨9, _⟩ => ⟨S838860, .i1⟩
  | .hbm, ⟨10, _⟩ => ⟨S_, .i32⟩
  | .hbm, ⟨11, _⟩ => ⟨S838860, .i32⟩
  | .hbm, ⟨12, _⟩ => ⟨S838860, .i32⟩
  | .hbm, ⟨13, _⟩ => ⟨S838860, .i32⟩
  | .hbm, ⟨14, _⟩ => ⟨S_, .i32⟩
  | .hbm, ⟨15, _⟩ => ⟨S838860, .i32⟩
  | .hbm, ⟨16, _⟩ => ⟨S838860, .i1⟩
  | .hbm, ⟨17, _⟩ => ⟨S_, .i32⟩
  | .hbm, ⟨18, _⟩ => ⟨S838860, .i32⟩
  | .hbm, ⟨19, _⟩ => ⟨S838860, .i32⟩
  | .hbm, ⟨20, _⟩ => ⟨S838860, .i32⟩
  | .hbm, ⟨21, _⟩ => ⟨S838860x1, .i32⟩
  | .hbm, ⟨22, _⟩ => ⟨S838860x1, .i32⟩
  | .hbm, ⟨23, _⟩ => ⟨S838860x2, .i32⟩
  | .hbm, ⟨24, _⟩ => ⟨S4096x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S838860 : S_.BroadcastsInDim S838860 (![] : Fin 0 → Fin S838860.rank)
  bcast_S838860_S838860x1_0 : S838860.BroadcastsInDim S838860x1 (![0] : Fin 1 → Fin S838860x1.rank)
  concatenates_S838860x1_S838860x1_S838860x2_d1 : Shape.Concatenates [S838860x1, S838860x1] S838860x2 1
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  scatter_S4096x4096_S838860x2_S838860_n_01_01_1_wf : ScatterDims.WF S4096x4096 S838860x2 S838860 [] [0, 1] [0, 1] 1
  dot_S16384x4096_S4096x4096_S16384x4096_1_1_0_0_n_n_wf : DotDims.WF S16384x4096 S4096x4096 S16384x4096 [1] [1] [0] [0] [] []

variable [Facts₀]

def scatter_S4096x4096_S838860x2_S838860_n_01_01_1 : ScatterDims S4096x4096 S838860x2 S838860 where
  updateWindowDims := []
  insertedWindowDims := [0, 1]
  scatterDimsToOperandDims := [0, 1]
  indexVectorDim := 1
  wf := scatter_S4096x4096_S838860x2_S838860_n_01_01_1_wf
def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Pieces.lean ====
/-
  What one run of the body leaves behind, as values of what it loaded.

  At a point with second grid coordinate zero the body first overwrites the carried [512, 4096] buffer with the
  narrowed block of `x`, then reads that buffer back; at every other point it only reads what the buffer already
  held. In both cases the output tile it stores is one function (`k0_pay2`) of the buffer's contents at the time of
  the read, the block of `W` and the block of the bias row.
-/
import proofs.«124740_j30777735643891_2_alg».proof.Proof.Gen.KernelIdeal.Frame
import Idealize.ShloMosaic.Lib.Pipeline.Value
import Idealize.ShloMosaic.Lib.Tactic

noncomputable section

namespace Cert.SparseLinear.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- With the second coordinate zero, the carried buffer ends holding the narrowed block of `x`: the one store into
    it covers it. -/
theorem carried_A (c : Dev nD) (i : grid0.Coords) (a2 : Memref sig .tc .vmem S512x4096 .f32) (h2 : a2.IsWhole)
    (a3 : Memref sig .tc .vmem S512x4096 .bf16) (h3 : a3.IsWhole) (a4 : Memref sig .tc .vmem S1x512 .f32) (h4 : a4.IsWhole)
    (a5 : Memref sig .tc .vmem S512x512 .f32) (h5 : a5.IsWhole) (a6 : Memref sig .tc .vmem S512x4096 .bf16) (h6 : a6.IsWhole)
    (hc : cond0_0 i) (x0 : Vec F S512x4096 .f32) (x1 : Vec F S512x4096 .bf16) (x2 : Vec F S1x512 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, View.ld_unit_zero (S := S512x4096) hz]

/-- With the second coordinate zero, the output tile is the body's arithmetic on the freshly narrowed block of `x`
    (read back from the carried buffer it was just stored into), the block of `W` and the block of the bias row. -/
theorem tile_A (c : Dev nD) (i : grid0.Coords) (a2 : Memref sig .tc .vmem S512x4096 .f32) (h2 : a2.IsWhole)
    (a3 : Memref sig .tc .vmem S512x4096 .bf16) (h3 : a3.IsWhole) (a4 : Memref sig .tc .vmem S1x512 .f32) (h4 : a4.IsWhole)
    (a5 : Memref sig .tc .vmem S512x512 .f32) (h5 : a5.IsWhole) (a6 : Memref sig .tc .vmem S512x4096 .bf16) (h6 : a6.IsWhole)
    (hc : cond0_0 i) (x0 : Vec F S512x4096 .f32) (x1 : Vec F S512x4096 .bf16) (x2 : Vec F S1x512 .f32) :
    out0_A_3 c i a2 h2 a3 h3 a4 h4 a5 h5 a6 h6 hc x0 x1 x2 = k0_pay2 (k0_pay1 x0) x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S512x512) hz, View.readCov_unit_zero (S := S512x4096) _ hz]
  simp only [View.readAt_eq_ld, h2.read_unread, h3.read_unread, h4.read_unread, View.ld_unit_zero (S := S512x4096) hz,
    View.ld_unit_zero (S := S1x512) hz]

/-- With the second coordinate nonzero, the output tile is the same arithmetic on what the carried buffer held when
    the point began. -/
theorem tile_B (c : Dev nD) (i : grid0.Coords) (a2 : Memref sig .tc .vmem S512x4096 .f32) (h2 : a2.IsWhole)
    (a3 : Memref sig .tc .vmem S512x4096 .bf16) (h3 : a3.IsWhole) (a4 : Memref sig .tc .vmem S1x512 .f32) (h4 : a4.IsWhole)
    (a5 : Memref sig .tc .vmem S512x512 .f32) (h5 : a5.IsWhole) (a6 : Memref sig .tc .vmem S512x4096 .bf16) (h6 : a6.IsWhole)
    (hc : ¬cond0_0 i) (x0 : Vec F S512x4096 .f32) (x1 : Vec F S512x4096 .bf16) (x2 : Vec F S1x512 .f32)
    (xs : Vec F S512x4096 .bf16) :
    out0_B_3 c i a2 h2 a3 h3 a4 h4 a5 h5 a6 h6 hc x0 x1 x2 xs = k0_pay2 xs x1 x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S512x512) hz]
  simp only [View.readAt_eq_ld, h6.read_unread, h3.read_unread, h4.read_unread, View.ld_unit_zero (S := S512x4096) hz,
    View.ld_unit_zero (S := S1x512) hz]

end Cert.SparseLinear.Pieces

end
-- ==== Proof.Affine.lean ====
/-
  The dense affine map `out[n, o] = Σ_k x[n, k] · W[o, k] + b[o]` over the extended reals, for
  `x : [16384, 4096]`, `W : [4096, 4096]`, `b : [4096]`, and its restriction to one [512, 512] tile:
  tile `(r, s)` depends only on rows `512 r … 512 r + 511` of `x`, rows `512 s … 512 s + 511` of `W`
  and entries `512 s … 512 s + 511` of `b`.
-/
import Idealize.ShloMosaic.PureOps.Ideal
import Idealize.ShloMosaic.Lib.ValueIdx

noncomputable section

namespace Cert.SparseLinear

open Idealize.ShloMosaic Idealize.ShloMosaic.ValueIdx

/-- Row `p` of row tile `r`: row `512 r + p` of the whole array. -/
def rowAt (r : Fin 32) (p : Fin 512) : Fin 16384 :=
  ⟨512 * r.val + p.val, by have := r.isLt; have := p.isLt; omega⟩

/-- Column `q` of column tile `s`: column `512 s + q` of the whole array. -/
def colAt (s : Fin 8) (q : Fin 512) : Fin 4096 :=
  ⟨512 * s.val + q.val, by have := s.isLt; have := q.isLt; omega⟩

@[simp] theorem rowAt_val (r : Fin 32) (p : Fin 512) : (rowAt r p).val = 512 * r.val + p.val := rfl
@[simp] theorem colAt_val (s : Fin 8) (q : Fin 512) : (colAt s q).val = 512 * s.val + q.val := rfl

/-- The affine map: entry `(n, o)` is the inner product of row `n` of `x` with row `o` of `W`, plus `b o`. -/
def affine (x : (⟨2, ![16384, 4096]⟩ : Shape).Idx → EReal) (W : (⟨2, ![4096, 4096]⟩ : Shape).Idx → EReal)
    (b : (⟨1, ![4096]⟩ : Shape).Idx → EReal) : (⟨2, ![16384, 4096]⟩ : Shape).Idx → EReal :=
  fun i => (∑ k : Fin 4096, x (ix2 (i 0) k) * W (ix2 (i 1) k)) + b (ix1 (i 1))

/-- One [512, 512] tile from a [512, 4096] block of `x`, a [512, 4096] block of `W` and a [1, 512] block of the
    bias row: entry `(p, q)` is the inner product of row `p` of the first with row `q` of the second, plus entry
    `q` of the third. -/
def tile (xb : (⟨2, ![512, 4096]⟩ : Shape).Idx → EReal) (wb : (⟨2, ![512, 4096]⟩ : Shape).Idx → EReal)
    (bb : (⟨2, ![1, 512]⟩ : Shape).Idx → EReal) : (⟨2, ![512, 512]⟩ : Shape).Idx → EReal :=
  fun j => (∑ k : Fin 4096, xb (ix2 (j 0) k) * wb (ix2 (j 1) k)) + bb (ix2 (0 : Fin 1) (j 1))

/-- Rows `512 r … 512 r + 511` of a [16384, 4096] array, rows `512 s … 512 s + 511` of a [4096, 4096] array, and
    entries `512 s … 512 s + 511` of a [1, 4096] row, as blocks (for values of any kind). -/
def rowsOf {α : Type} (X : (⟨2, ![16384, 4096]⟩ : Shape).Idx → α) (r : Fin 32) : (⟨2, ![512, 4096]⟩ : Shape).Idx → α :=
  fun y => X (ix2 (rowAt r (y 0)) (y 1))
def wrowsOf {α : Type} (W : (⟨2, ![4096, 4096]⟩ : Shape).Idx → α) (s : Fin 8) : (⟨2, ![512, 4096]⟩ : Shape).Idx → α :=
  fun y => W (ix2 (colAt s (y 0)) (y 1))
def browOf {α : Type} (B : (⟨2, ![1, 4096]⟩ : Shape).Idx → α) (s : Fin 8) : (⟨2, ![1, 512]⟩ : Shape).Idx → α :=
  fun y => B (ix2 (0 : Fin 1) (colAt s (y 1)))

/-- A [1, 4096] row as a vector of 4096 entries. -/
def rowVec (B : (⟨2, ![1, 4096]⟩ : Shape).Idx → EReal) : (⟨1, ![4096]⟩ : Shape).Idx → EReal :=
  fun i => B (ix2 (0 : Fin 1) (i 0))

/-- The tile built from the blocks of `x`, `W` and the bias row at `(r, s)` is the affine map read at the tile's
    entries. -/
theorem tile_eq_affine (X : (⟨2, ![16384, 4096]⟩ : Shape).Idx → EReal) (W : (⟨2, ![4096, 4096]⟩ : Shape).Idx → EReal)
    (B : (⟨2, ![1, 4096]⟩ : Shape).Idx → EReal) (r : Fin 32) (s : Fin 8) (j : (⟨2, ![512, 512]⟩ : Shape).Idx) :
    tile (rowsOf X r) (wrowsOf W s) (browOf B s) j
      = affine X W (rowVec B) (ix2 (rowAt r (j 0)) (colAt s (j 1))) := rfl

end Cert.SparseLinear

end
-- ==== Proof.Carried.lean ====
/-
  What the carried buffer and the output's staging buffer hold after every grid point.

  The 256 points are visited in row-major order of the 32 × 8 grid: point `t` has row tile `t / 8` and column tile
  `t % 8`. Its three input blocks are rows `512 (t / 8) …` of `x`, rows `512 (t % 8) …` of the dense weight array
  and entries `512 (t % 8) …` of the bias row. The carried buffer is refilled exactly when the column tile is
  zero; between refills the row tile does not change, so after EVERY point it holds the narrowed block of `x` of
  that point's own row tile (induction along the points), and the tile stored at the point is the body's
  arithmetic on that block and the point's blocks of the weights and the bias.
-/
import proofs.«124740_j30777735643891_2_alg».proof.Proof.Gen.KernelIdeal.Frame
import proofs.«124740_j30777735643891_2_alg».proof.Proof.Pieces
import proofs.«124740_j30777735643891_2_alg».proof.Proof.Affine
import Idealize.ShloMosaic.Lib.Pipeline.Value
import Idealize.ShloMosaic.Lib.ValueIdx

noncomputable section

namespace Cert.SparseLinear.Carried

open Idealize.ShloMosaic Idealize.ShloMosaic.TcCoe Idealize.SL.Sem Idealize.ShloMosaic.ValueIdx
open Cert.KernelIdeal Cert.KernelIdeal.Gen Cert.SparseLinear

variable {F : FTy → Type} [FloatOps F]
variable (m : (ℓ : Loc nD τ sig) → Buf (Elt F) ℓ)

/-- The row tile and the column tile of a point. -/
def rowTile (t : Fin cfg0.N) : Fin 32 :=
  ⟨t.val / 8, by have h := t.isLt; have hN : cfg0.N = 256 := N_0; omega⟩
def colTile (t : Fin cfg0.N) : Fin 8 := ⟨t.val % 8, by omega⟩

@[simp] theorem rowTile_val (t : Fin cfg0.N) : (rowTile t).val = t.val / 8 := rfl
@[simp] theorem colTile_val (t : Fin cfg0.N) : (colTile t).val = t.val % 8 := rfl

variable (c : Dev nD)

-- the three input arrays as the region finds them, spelt exactly as a window's block read spells them
local notation "Xin" => (V m c (Pipeline.arrRef spec0 0))
local notation "Win" => (V m c (Pipeline.arrRef spec0 1))
local notation "Bin" => (V m c (Pipeline.arrRef spec0 2))

/-- The printed index maps over the grid: the block indices of the four windows at point `t`. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- Window 0's block at point `t`, of ANY contents of its array, is rows `512 (t / 8) …`. -/
theorem read_x (A : Buf (Elt F) ((c : Thread nD τ).loc (Pipeline.arrRef spec0 0))) (t : Fin cfg0.N) :
    (((cfg0.win 0).blk t).view.read (Elt F) A : Vec F S512x4096 .f32) = rowsOf A (rowTile t) := by
  obtain ⟨e0, e1, -⟩ := index_facts t
  funext y
  rw [View.read_apply]
  unfold rowsOf
  refine congrArg A (funext fun a => Fin.ext ?_)
  match a with
  | ⟨0, _⟩ => show win0_0.index t (0 : Fin 2) * 512 + 1 * (y 0).val = 512 * (t.val / 8) + (y 0).val; omega
  | ⟨1, _⟩ => show win0_0.index t (1 : Fin 2) * 4096 + 1 * (y 1).val = (y 1).val; omega

/-- Window 1's block at point `t`, of any contents of its array, is rows `512 (t % 8) …`. -/
theorem read_w (A : Buf (Elt F) ((c : Thread nD τ).loc (Pipeline.arrRef spec0 1))) (t : Fin cfg0.N) :
    (((cfg0.win 1).blk t).view.read (Elt F) A : Vec F S512x4096 .bf16) = wrowsOf A (colTile t) := by
  obtain ⟨-, -, e2, e3, -⟩ := index_facts t
  funext y
  rw [View.read_apply]
  unfold wrowsOf
  refine congrArg A (funext fun a => Fin.ext ?_)
  match a with
  | ⟨0, _⟩ => show win0_1.index t (0 : Fin 2) * 512 + 1 * (y 0).val = 512 * (t.val % 8) + (y 0).val; omega
  | ⟨1, _⟩ => show win0_1.index t (1 : Fin 2) * 4096 + 1 * (y 1).val = (y 1).val; omega

/-- Window 2's block at point `t`, of any contents of its array, is entries `512 (t % 8) …` of the row. -/
theorem read_b (A : Buf (Elt F) ((c : Thread nD τ).loc (Pipeline.arrRef spec0 2))) (t : Fin cfg0.N) :
    (((cfg0.win 2).blk t).view.read (Elt F) A : Vec F S1x512 .f32) = browOf A (colTile t) := by
  obtain ⟨-, -, -, -, e4, e5, -⟩ := index_facts t
  funext y
  rw [View.read_apply]
  unfold browOf
  refine congrArg A (funext fun a => Fin.ext ?_)
  match a with
  | ⟨0, _⟩ => show win0_2.index t (0 : Fin 2) * 1 + 1 * (y 0).val = 0; have : (y 0).val < 1 := (y 0).isLt; omega
  | ⟨1, _⟩ => show win0_2.index t (1 : Fin 2) * 512 + 1 * (y 1).val = 512 * (t.val % 8) + (y 1).val; omega

/-- The three input blocks of point `t`, read off the arrays as the region finds them. -/
theorem iblk0_eq (t : Fin cfg0.N) : (iblk m c 0 t : Vec F S512x4096 .f32) = rowsOf Xin (rowTile t) :=
  read_x c Xin t
theorem iblk1_eq (t : Fin cfg0.N) : (iblk m c 1 t : Vec F S512x4096 .bf16) = wrowsOf Win (colTile t) :=
  read_w c Win t
theorem iblk2_eq (t : Fin cfg0.N) : (iblk m c 2 t : Vec F S1x512 .f32) = browOf Bin (colTile t) :=
  read_b c Bin t

/-- Two points of one row tile. -/
theorem rowTile_pred (t : Fin cfg0.N) (h0 : ¬t.val % 8 = 0) (h : t.val - 1 < cfg0.N) :
    rowTile ⟨t.val - 1, h⟩ = rowTile t :=
  Fin.ext (by show (t.val - 1) / 8 = t.val / 8; omega)

/-- THE INVARIANT: after point `n` the carried buffer holds the narrowed row tile `n / 8` of `x`. A point with
    column tile zero stores exactly that; any other point stores nothing, and the point before it had the same
    row tile. -/
theorem carried_eq : ∀ (n : ℕ) (h : n < cfg0.N),
    (outsAt0 m c n h).2 = k0_pay1 (rowsOf Xin (rowTile ⟨n, h⟩)) := by
  intro n
  induction n with
  | zero =>
    intro h
    have h0 : (⟨0, h⟩ : Fin cfg0.N).val % 8 = 0 := rfl
    refine (congrArg Prod.snd (outsAt0_A m c ⟨0, h⟩ h0)).trans ?_
    dsimp only
    rw [Pieces.carried_A, iblk0_eq]
  | succ n ih =>
    intro h
    by_cases h0 : (⟨n + 1, h⟩ : Fin cfg0.N).val % 8 = 0
    · refine (congrArg Prod.snd (outsAt0_A m c ⟨n + 1, h⟩ h0)).trans ?_
      dsimp only
      rw [Pieces.carried_A, iblk0_eq]
    · refine (congrArg Prod.snd (outsAt0_B m c ⟨n + 1, h⟩ h0)).trans ?_
      dsimp only
      unfold sout0_B_0
      show (outsAt0 m c n (Nat.lt_of_succ_lt h)).2 = _
      rw [ih (Nat.lt_of_succ_lt h)]
      exact congrArg (fun r => k0_pay1 (rowsOf Xin r)) (rowTile_pred ⟨n + 1, h⟩ h0 (Nat.lt_of_succ_lt h))

/-- THE TILE stored at point `t`: the body's arithmetic on the narrowed row tile `t / 8` of `x`, tile `t % 8` of
    the weights and tile `t % 8` of the bias row — at a refill point on the block just narrowed, elsewhere on what
    the invariant says the buffer held. -/
theorem stored_at (t : Fin cfg0.N) :
    (outsAt0 m c t.val t.isLt).1
      = k0_pay2 (k0_pay1 (rowsOf Xin (rowTile t))) (wrowsOf Win (colTile t)) (browOf Bin (colTile t)) := by
  by_cases h0 : t.val % 8 = 0
  · rw [outsAt0_A m c t h0]
    dsimp only
    rw [Pieces.tile_A, iblk0_eq, iblk1_eq, iblk2_eq]
  · rw [outsAt0_B m c t h0]
    dsimp only
    rw [Pieces.tile_B, iblk1_eq, iblk2_eq, carried_eq m c (t.val - 1) _, rowTile_pred t h0]

end Cert.SparseLinear.Carried

end
-- ==== Proof.Payload.lean ====
/-
  The body's arithmetic over the extended reals.

  Narrowing a block of `x` to the shorter float format changes nothing, and the stored tile — a matrix product
  into a zero accumulator, contracting the 4096-long axis of both operands, plus the bias row broadcast down the
  512 rows — is, entry by entry, an inner product of a row of the first operand with a row of the second, plus
  the bias entry of that column.
-/
import proofs.«124740_j30777735643891_2_alg».proof.Proof.Gen.KernelIdeal.Skeleton
import proofs.«124740_j30777735643891_2_alg».proof.Proof.Affine
import Idealize.ShloMosaic.Lib.Pipeline.Value
import Idealize.ShloMosaic.Lib.ValueIdx
import Idealize.ShloMosaic.PureOps.Ideal.Laws

noncomputable section

namespace Cert.SparseLinear.Payload

open Idealize.ShloMosaic Idealize.ShloMosaic.ValueIdx
open Cert.KernelIdeal Cert.KernelIdeal.Gen

/-- Narrowing is the identity on extended reals. -/
theorem narrowed (v : Vec Ideal S512x4096 .f32) : k0_pay1 (F := Ideal) v = v := by
  unfold k0_pay1
  simp only [shapeCast_self]
  rfl

/-- The left operand of the product is read at the output's row and the contraction index; -/
theorem lhs_row (j : S512x512.Idx) (k : dot_S512x4096_S512x4096_S512x512_1_1_0_0_n_n.contr.Idx) :
    (dot_S512x4096_S512x4096_S512x512_1_1_0_0_n_n.lhsIdx j k 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl
theorem lhs_contr (j : S512x512.Idx) (k : dot_S512x4096_S512x4096_S512x512_1_1_0_0_n_n.contr.Idx) :
    (dot_S512x4096_S512x4096_S512x512_1_1_0_0_n_n.lhsIdx j k 1).val = (k ⟨0, by decide⟩).val :=
  dot_S512x4096_S512x4096_S512x512_1_1_0_0_n_n.lhsIdx_val_of_single rfl j k
/-- the right operand at the output's COLUMN (as a row of the operand) and the contraction index. -/
theorem rhs_row (j : S512x512.Idx) (k : dot_S512x4096_S512x4096_S512x512_1_1_0_0_n_n.contr.Idx) :
    (dot_S512x4096_S512x4096_S512x512_1_1_0_0_n_n.rhsIdx j k 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl
theorem rhs_contr (j : S512x512.Idx) (k : dot_S512x4096_S512x4096_S512x512_1_1_0_0_n_n.contr.Idx) :
    (dot_S512x4096_S512x4096_S512x512_1_1_0_0_n_n.rhsIdx j k 1).val = (k ⟨0, by decide⟩).val :=
  dot_S512x4096_S512x4096_S512x512_1_1_0_0_n_n.rhsIdx_val_of_single rfl j k

/-- The product into the zero accumulator at `(p, q)`: the inner product of row `p` of the left operand with row
    `q` of the right one. -/
theorem product_apply (v3 v4 : FVec Ideal S512x4096 .bf16) (p q : Fin 512) :
    matmul (F := Ideal) (φ₁ := .bf16) (φ₂ := .bf16) dot_S512x4096_S512x4096_S512x512_1_1_0_0_n_n none v3 v4
        (constant (F := Ideal) S512x512 .f32 0x00000000#32) (ix2 p q)
      = ∑ k : Fin 4096, v3 (ix2 p k) * v4 (ix2 q k) := by
  refine (Ideal.matmul_constant_zero_apply (φ₁ := .bf16) (φ₂ := .bf16) dot_S512x4096_S512x4096_S512x512_1_1_0_0_n_n none v3 v4 (ix2 p q)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k :=
    funext fun a => Fin.ext (by
      match a with
      | ⟨0, _⟩ => exact lhs_row _ _
      | ⟨1, _⟩ => exact (lhs_contr _ _).trans hk)
  have er : dot_S512x4096_S512x4096_S512x512_1_1_0_0_n_n.rhsIdx (ix2 p q) ((contrEquiv1 dot_S512x4096_S512x4096_S512x512_1_1_0_0_n_n 4096 rfl rfl).symm k) = ix2 q k :=
    funext fun a => Fin.ext (by
      match a with
      | ⟨0, _⟩ => exact rhs_row _ _
      | ⟨1, _⟩ => exact (rhs_contr _ _).trans hk)
  rw [el, er]

/-- The bias row broadcast down the rows, read at `(p, q)`: entry `q` of the row. -/
theorem bias_apply (v7 : Vec Ideal S1x512 .f32) (p q : Fin 512) :
    broadcastTo S512x512 v7 broadcasts_S1x512_S512x512 (ix2 p q) = v7 (ix2 (0 : Fin 1) q) :=
  broadcastTo_apply v7 broadcasts_S1x512_S512x512 (ix2 p q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-- The stored tile is `tile` of the three blocks the body read. -/
theorem stored_eq_tile (v3 v4 : Vec Ideal S512x4096 .bf16) (v7 : Vec Ideal S1x512 .f32) :
    k0_pay2 (F := Ideal) v3 v4 v7 = Cert.SparseLinear.tile v3 v4 v7 := by
  funext j
  obtain ⟨p, q, rfl⟩ : ∃ (p q : Fin 512), j = ix2 p q := ⟨j 0, j 1, eq_ix2 j⟩
  unfold k0_pay2 Cert.SparseLinear.tile
  simp only [shapeCast_self]
  exact congrArg₂ (· + ·) (product_apply v3 v4 p q) (bias_apply v7 p q)

end Cert.SparseLinear.Payload

end
-- ==== Proof.Final.lean ====
/-
  The result array after the run is the affine map of the three arrays the region finds.

  Point `t` writes back the tile computed from rows `512 (t / 8) …` of `x`, rows `512 (t % 8) …` of the weights
  and entries `512 (t % 8) …` of the bias row, into block `(t / 8, t % 8)` of the result: that tile is the affine
  map read through the block. Every entry `(n, o)` of the result lies in the block of the point
  `8 (n / 512) + o / 512`, so the 256 blocks cover the array and it ends holding the affine map everywhere.
-/
import proofs.«124740_j30777735643891_2_alg».proof.Proof.Gen.KernelIdeal.Value
import proofs.«124740_j30777735643891_2_alg».proof.Proof.Carried
import proofs.«124740_j30777735643891_2_alg».proof.Proof.Payload
import proofs.«124740_j30777735643891_2_alg».proof.Proof.Affine
import Idealize.ShloMosaic.Lib.Pipeline.Value
import Idealize.ShloMosaic.Lib.ValueIdx

noncomputable section

namespace Cert.SparseLinear.Final

open Idealize.ShloMosaic Idealize.ShloMosaic.TcCoe Idealize.SL.Sem Idealize.ShloMosaic.ValueIdx
open Idealize.ShloMosaic.Pipeline (Dat)
open Cert.KernelIdeal Cert.KernelIdeal.Gen Cert.SparseLinear Cert.SparseLinear.Carried

variable (m : (ℓ : Loc nD τ sig) → Buf (Elt Ideal) ℓ) (ρ : Dev nD → PrngReg)
variable (c : Dev nD)

-- the three input arrays as the region finds them, spelt exactly as a window's block read spells them
local notation "Xin" => (V m c (Pipeline.arrRef spec0 0))
local notation "Win" => (V m c (Pipeline.arrRef spec0 1))
local notation "Bin" => (V m c (Pipeline.arrRef spec0 2))

/-- For ANY contents of the three input arrays: the tile of their blocks at point `t` is block `t` of their
    affine map — entry `(p, q)` of the block is entry `(512 (t / 8) + p, 512 (t % 8) + q)` of the array. -/
theorem tile_is_block (X : Buf (Elt Ideal) ((c : Thread nD τ).loc (Pipeline.arrRef spec0 0)))
    (W : Buf (Elt Ideal) ((c : Thread nD τ).loc (Pipeline.arrRef spec0 1)))
    (B : Buf (Elt Ideal) ((c : Thread nD τ).loc (Pipeline.arrRef spec0 2))) (t : Fin cfg0.N) :
    (cfg0.win 3).cut (grid0.coords t) (tile (rowsOf X (rowTile t)) (wrowsOf W (colTile t)) (browOf B (colTile t)))
      = ((cfg0.win 3).blk t).view.read (Elt Ideal) (affine X W (rowVec B)) := by
  obtain ⟨-, -, -, -, -, -, e6, e7⟩ := index_facts t
  funext j
  rw [View.read_apply]
  show tile (rowsOf X (rowTile t)) (wrowsOf W (colTile t)) (browOf B (colTile t)) j
      = affine X W (rowVec B) (((cfg0.win 3).blk t).view.emb j)
  rw [tile_eq_affine]
  refine congrArg (affine X W (rowVec B)) (funext fun a => Fin.ext ?_)
  match a with
  | ⟨0, _⟩ => show 512 * (t.val / 8) + (j 0).val = win0_3.index t (0 : Fin 2) * 512 + 1 * (j 0).val; omega
  | ⟨1, _⟩ => show 512 * (t.val % 8) + (j 1).val = win0_3.index t (1 : Fin 2) * 512 + 1 * (j 1).val; omega

/-- WHAT POINT `t` WRITES BACK is block `t` of the affine map of the arrays the region finds. -/
theorem flushed_eq (t : Fin cfg0.N) :
    (dats m 0 c).flushed 3 t = ((cfg0.win 3).blk t).view.read (Elt Ideal) (affine Xin Win (rowVec Bin)) := by
  rw [Cert.KernelIdeal.Value.flushed3, stored_at m c t, Payload.narrowed, Payload.stored_eq_tile]
  exact tile_is_block c Xin Win Bin t

/-- An entry of the result is in point `t`'s block iff each coordinate is in the block's range on its axis. -/
theorem mem_blk (t : Fin cfg0.N) (i : S16384x4096.Idx) :
    i ∈ ((cfg0.win 3).blk t).view.set
      ↔ ∀ a : Fin 2, win0_3.index t a * S512x512.size a ≤ (i a).val
          ∧ (i a).val < win0_3.index t a * S512x512.size a + S512x512.size a := by
  show i ∈ ((View.whole main_v17).slice (win0_3.rect t)).set ↔ _
  rw [View.set_slice_whole, Rect.mem_set_unit]
  exact Iff.rfl

/-- Every entry `(n, o)` lies in the block of the point `8 (n / 512) + o / 512`, which writes back. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  have hlt : 8 * ((i 0).val / 512) + (i 1).val / 512 < cfg0.N := by omega
  obtain ⟨-, -, -, -, -, -, e6, e7⟩ := index_facts ⟨8 * ((i 0).val / 512) + (i 1).val / 512, hlt⟩
  refine ⟨⟨8 * ((i 0).val / 512) + (i 1).val / 512, hlt⟩, flush0_3 _, ?_⟩
  rw [mem_blk]
  intro a
  match a with
  | ⟨0, _⟩ =>
    show win0_3.index ⟨8 * ((i 0).val / 512) + (i 1).val / 512, hlt⟩ (0 : Fin 2) * 512 ≤ (i 0).val
      ∧ (i 0).val < win0_3.index ⟨8 * ((i 0).val / 512) + (i 1).val / 512, hlt⟩ (0 : Fin 2) * 512 + 512
    rw [e6]
    show (8 * ((i 0).val / 512) + (i 1).val / 512) / 8 * 512 ≤ (i 0).val
      ∧ (i 0).val < (8 * ((i 0).val / 512) + (i 1).val / 512) / 8 * 512 + 512
    omega
  | ⟨1, _⟩ =>
    show win0_3.index ⟨8 * ((i 0).val / 512) + (i 1).val / 512, hlt⟩ (1 : Fin 2) * 512 ≤ (i 1).val
      ∧ (i 1).val < win0_3.index ⟨8 * ((i 0).val / 512) + (i 1).val / 512, hlt⟩ (1 : Fin 2) * 512 + 512
    rw [e7]
    show (8 * ((i 0).val / 512) + (i 1).val / 512) % 8 * 512 ≤ (i 1).val
      ∧ (i 1).val < (8 * ((i 0).val / 512) + (i 1).val / 512) % 8 * 512 + 512
    omega

/-- THE RESULT ARRAY after the run: the affine map of the arrays the region finds. -/
theorem final : (dats m 0 c).arrAt 3 cfg0.N = affine Xin Win (rowVec Bin) :=
  (dats m 0 c).arrAt_eq_of_cover 3 (affine Xin Win (rowVec Bin)) (fun t _ => flushed_eq m c t) cover

end Cert.SparseLinear.Final

end
-- ==== Proof.Weights.lean ====
/-
  The two arrays the host operations build before the kernel is launched, in terms of the arguments.

  The dense weight array is the scatter of the (narrowed) sparse values into a [4096, 4096] array of zeros at the
  (wrapped) row and column indices. Over the extended reals narrowing is the identity and the zero of the short
  format is the zero of the long one, so it is the very array the reference scatters: the two scatters have the
  same operand, the same index column pairs and the same updates, and a scatter is a function of those. The bias
  row is the bias vector laid out as one row.
-/
import proofs.«124740_j30777735643891_2_alg».proof.Proof.Gen.KernelIdeal.Frame.Runs
import proofs.«124740_j30777735643891_2_alg».proof.Proof.Gen.ReferenceIdeal.Read
import proofs.«124740_j30777735643891_2_alg».proof.Proof.Affine
import Idealize.ShloMosaic.Lib.StableHlo.Run
import Idealize.ShloMosaic.Lib.Pipeline.Value
import Idealize.ShloMosaic.Lib.ValueIdx
import Idealize.ShloMosaic.PureOps.Ideal.Laws

noncomputable section

namespace Cert.SparseLinear.Weights

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ)

/-- The all-zero word of the short format denotes zero. -/
theorem zero_short : Ideal.ofBits .bf16 0x0000#16 = 0 := by simp [Ideal.ofBits, Ideal.ieee]

/-- A scatter is a function of its operand, its indices and its updates. -/
theorem scatter_congr {α : Type} {s si u : Shape} {w : Nat} (d : ScatterDims s si u) (f : α → α → α)
    {x x' : s.Idx → α} {i i' : IVec si w} {v v' : u.Idx → α} (hx : x = x') (hi : i = i') (hv : v = v') :
    Host.scatter d f x i v = Host.scatter d f x' i' v' := by
  subst hx hi hv; rfl

/-- The zero array the kernel's program scatters into is the one the reference scatters into. -/
theorem zeros_eq :
    (broadcastInDim S4096x4096 ![] bcast_S_S4096x4096 (constant (F := Ideal) S_ .bf16 0x0000#16) : S4096x4096.Idx → EReal)
      = Cert.ReferenceIdeal.Read.val_main_v0 (F := Ideal) := by
  funext i
  show Ideal.ofBits .bf16 0x0000#16 = Ideal.ofBits .f32 0x00000000#32
  rw [zero_short, Ideal.ofBits_zero_f32]

set_option maxHeartbeats 1000000 in
/-- THE DENSE WEIGHT ARRAY as the region finds it is the reference's scattered array of the same arguments. -/
theorem weights_eq (c : Dev nD) :
    (V m c main_v15 : S4096x4096.Idx → EReal)
      = Cert.ReferenceIdeal.Read.val_main_v14 (F := Ideal) (m ((c : Thread nD τ).loc main_arg1))
          (m ((c : Thread nD τ).loc main_arg3)) (m ((c : Thread nD τ).loc main_arg4)) := by
  dsimp only [Gen.V, Gen.hostOps0]
  after_results
  unfold Cert.ReferenceIdeal.Read.val_main_v14
  refine scatter_congr _ _ zeros_eq ?_ ?_
  · rfl
  · rfl

set_option maxHeartbeats 1000000 in
/-- THE BIAS ROW as the region finds it, read at its entry `q`: entry `q` of the bias vector. -/
theorem bias_row_apply (c : Dev nD) (q : Fin 4096) :
    (V m c main_v16 : S1x4096.Idx → EReal) (ix2 (0 : Fin 1) q)
      = m ((c : Thread nD τ).loc main_arg2) (ix1 q) := by
  have e : (V m c main_v16 : S1x4096.Idx → EReal)
      = shapeCast S1x4096 (m ((c : Thread nD τ).loc main_arg2)) shapeCasts_S4096_S1x4096 := by
    dsimp only [Gen.V, Gen.hostOps0]; after_results; rfl
  rw [e]
  exact shapeCast_apply _ shapeCasts_S4096_S1x4096 (ix2 (0 : Fin 1) q) (ix1 q) (by
    rw [Shape.rowMajor_val_one, Shape.rowMajor_val_two]; simp)

end Cert.SparseLinear.Weights

end
-- ==== Proof.RefSide.lean ====
/-
  The reference computes the affine map of `x`, its scattered weight array and the bias.

  Its last three stages are a product contracting the second axis of `x` with the second axis of the weight
  array, the bias spread over the rows, and their sum; read at entry `(n, o)` that is
  `Σ_k x[n, k] · W[o, k] + b[o]`. The weight array itself (a scatter of the sparse values into zeros) is kept as
  one unopened term.
-/
import proofs.«124740_j30777735643891_2_alg».proof.Proof.Gen.ReferenceIdeal.Read
import proofs.«124740_j30777735643891_2_alg».proof.Proof.Affine
import Idealize.ShloMosaic.Lib.ValueIdx

noncomputable section

namespace Cert.SparseLinear.RefSide

open Idealize.ShloMosaic Idealize.ShloMosaic.ValueIdx
open Cert.ReferenceIdeal Cert.ReferenceIdeal.Read

/-- The product reads `x` at the output's row and the contraction index, -/
theorem left_index (i : S16384x4096.Idx) (k : Fin 4096) :
    lidx_main_v15 i k = ix2 (n0 := 16384) (n1 := 4096) (i 0) k :=
  funext fun a => Fin.ext (by match a with | ⟨0, _⟩ => rfl | ⟨1, _⟩ => rfl)

/-- the weight array at the output's column (as a row) and the contraction index, -/
theorem right_index (i : S16384x4096.Idx) (k : Fin 4096) :
    ridx_main_v15 i k = ix2 (n0 := 4096) (n1 := 4096) (i 1) k :=
  funext fun a => Fin.ext (by match a with | ⟨0, _⟩ => rfl | ⟨1, _⟩ => rfl)

/-- and the spread bias is read at the output's column. -/
theorem bias_index (i : S16384x4096.Idx) :
    idx_main_v16 (idx_main_v17 i) = ix1 (n := 4096) (i 1) :=
  funext fun a => Fin.ext (by match a with | ⟨0, _⟩ => rfl)

/-- The reference's result is the affine map of `x`, the scattered weights and the bias. -/
theorem result_eq (x0 : (⟨S16384x4096, .f32⟩ : BufTy).Contents (Elt Ideal)) (x1 : (⟨S838860, .f32⟩ : BufTy).Contents (Elt Ideal))
    (x2 : (⟨S4096, .f32⟩ : BufTy).Contents (Elt Ideal)) (x3 x4 : (⟨S838860, .i32⟩ : BufTy).Contents (Elt Ideal)) :
    val_main_v18 (F := Ideal) x0 x1 x2 x3 x4
      = Cert.SparseLinear.affine x0 (val_main_v14 (F := Ideal) x1 x3 x4) x2 := by
  funext i
  rw [val_main_v18_apply, val_main_v15_apply, val_main_v17_apply, val_main_v16_apply]
  simp only [left_index, right_index, bias_index]
  rfl

end Cert.SparseLinear.RefSide

end
-- ==== Proof.Bridge.lean ====
/-
  The kernel's result array as a function of the ARGUMENTS.

  The region finds `x` as launched (no host operation writes it), the dense weight array equal to the reference's
  scattered array of the same arguments, and the bias vector laid out as a row. So the affine map of the three
  arrays the region finds is the affine map of `x`, the scattered weights and the bias — the array the reference
  ends with.
-/
import proofs.«124740_j30777735643891_2_alg».proof.Proof.Final
import proofs.«124740_j30777735643891_2_alg».proof.Proof.Weights
import proofs.«124740_j30777735643891_2_alg».proof.Proof.RefSide

noncomputable section

namespace Cert.SparseLinear.Bridge

open Idealize.ShloMosaic Idealize.ShloMosaic.TcCoe Idealize.SL.Sem Idealize.ShloMosaic.ValueIdx
open Cert.KernelIdeal Cert.KernelIdeal.Gen Cert.SparseLinear

variable (m : (ℓ : Loc nD τ sig) → Buf (Elt Ideal) ℓ) (ρ : Dev nD → PrngReg)

/-- The common result: the affine map of `x`, the weights scattered from the sparse arguments, and the bias. -/
def value (c : Dev nD) : S16384x4096.Idx → EReal :=
  affine (m ((c : Thread nD τ).loc main_arg0))
    (Cert.ReferenceIdeal.Read.val_main_v14 (F := Ideal) (m ((c : Thread nD τ).loc main_arg1))
      (m ((c : Thread nD τ).loc main_arg3)) (m ((c : Thread nD τ).loc main_arg4)))
    (m ((c : Thread nD τ).loc main_arg2))

/-- The bias row the region finds, as a vector, is the bias argument. -/
theorem bias_vec (c : Dev nD) :
    rowVec (V m c (Pipeline.arrRef spec0 2)) = m ((c : Thread nD τ).loc main_arg2) := by
  funext i
  obtain ⟨q, rfl⟩ : ∃ q : Fin 4096, i = ix1 q := ⟨i 0, eq_ix1 i⟩
  exact Weights.bias_row_apply m c q

/-- The affine map of the arrays the region finds is the common result. -/
theorem found_eq_value (c : Dev nD) :
    affine (V m c (Pipeline.arrRef spec0 0)) (V m c (Pipeline.arrRef spec0 1)) (rowVec (V m c (Pipeline.arrRef spec0 2)))
      = value m c := by
  have hX : (V m c (Pipeline.arrRef spec0 0) : S16384x4096.Idx → EReal) = m ((c : Thread nD τ).loc main_arg0) :=
    V_main_arg0 m c
  have hW : (V m c (Pipeline.arrRef spec0 1) : S4096x4096.Idx → EReal)
      = Cert.ReferenceIdeal.Read.val_main_v14 (F := Ideal) (m ((c : Thread nD τ).loc main_arg1))
          (m ((c : Thread nD τ).loc main_arg3)) (m ((c : Thread nD τ).loc main_arg4)) :=
    Weights.weights_eq m c
  rw [bias_vec m c, hX, hW]
  rfl

/-- THE KERNEL'S RUN: every weakly fair execution terminates with the result array at the common result and the
    arguments unchanged. -/
theorem run : θ_run defs (onTc (τ := τ) (main (F := Ideal))) ⟨m, fun _ => 0, ρ⟩ fun r => ∀ c : Dev nD,
      r.2.mem ((c : Thread nD τ).loc main_v17) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((Final.final m c).trans (found_eq_value m c)), (h c).2⟩)
    (Cert.KernelIdeal.Value.run_blocks m ρ)

end Cert.SparseLinear.Bridge

end
-- ==== Proof.lean ====
/-
  SparseLinear: `out = x · Wᵀ + b` with `W` scattered from 838860 (row, column, value) triples into a
  [4096, 4096] array of zeros, `x : [16384, 4096]`, `b : [4096]`.

  The kernel's program scatters the values (narrowed to the short float format) on the host, then computes the
  product tile by tile on a 32 × 8 grid: each point multiplies a [512, 4096] row tile of `x` — narrowed once per
  row tile into a buffer carried across the 8 points of that row tile — with a [512, 4096] row tile of `W`,
  contracting the long axis, and adds the bias tile. The reference scatters the values as they are and takes one
  whole product, then adds the bias. Over the extended reals narrowing is the identity, so both scatter the same
  array, and entry `(n, o)` of both results is `Σ_k x[n, k] · W[o, k] + b[o]`: the same sum, term for term, with no
  regrouping — finiteness of the inputs is never used.

  The frames are the generated ones (the reference's is its generated run with the result dropped); the
  idealization rewrote nothing, so `preserves` is trivial; the value claim puts the kernel's run
  (Proof/Bridge.lean) beside the reference's generated run read at an index (Proof/RefSide.lean).
-/
import proofs.«124740_j30777735643891_2_alg».proof.Defs
import proofs.«124740_j30777735643891_2_alg».proof.Proof.Gen.Kernel
import proofs.«124740_j30777735643891_2_alg».proof.Proof.Gen.Kernel.Skeleton
import proofs.«124740_j30777735643891_2_alg».proof.Proof.Gen.Kernel.Launch
import proofs.«124740_j30777735643891_2_alg».proof.Proof.Gen.Kernel.Points
import proofs.«124740_j30777735643891_2_alg».proof.Proof.Gen.Kernel.Frame
import proofs.«124740_j30777735643891_2_alg».proof.Proof.Gen.KernelIdeal
import proofs.«124740_j30777735643891_2_alg».proof.Proof.Gen.KernelIdeal.Skeleton
import proofs.«124740_j30777735643891_2_alg».proof.Proof.Gen.KernelIdeal.Launch
import proofs.«124740_j30777735643891_2_alg».proof.Proof.Gen.KernelIdeal.Points
import proofs.«124740_j30777735643891_2_alg».proof.Proof.Gen.KernelIdeal.Frame
import proofs.«124740_j30777735643891_2_alg».proof.Proof.Gen.ReferenceIdeal
import proofs.«124740_j30777735643891_2_alg».proof.Proof.Gen.Pre_finite_inputs
import proofs.«124740_j30777735643891_2_alg».proof.Proof.Gen.KernelIdeal.Value
import proofs.«124740_j30777735643891_2_alg».proof.Proof.Gen.ReferenceIdeal.Run
import proofs.«124740_j30777735643891_2_alg».proof.Proof.Gen.ReferenceIdeal.Read
import proofs.«124740_j30777735643891_2_alg».proof.Proof.Bridge
import proofs.«124740_j30777735643891_2_alg».proof.Proof.RefSide
import Idealize.ShloMosaic.Adequacy
import Idealize.ShloMosaic.Init

noncomputable section

namespace Cert.Proof

open Idealize.ShloMosaic Idealize.SL.Sem Cert.Kernel

/-- The word-level kernel's program runs, faults nowhere and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the affine map of `x`, the weights
    scattered from the sparse arguments, and the bias. -/
theorem algebraic : Cert.algebraic_KernelIdeal_ReferenceIdeal := by
  intro m ρ m' ρ' _ hagree
  refine ⟨fun c => Cert.SparseLinear.Bridge.value m c, Cert.SparseLinear.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.SparseLinear.RefSide.result_eq, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
